-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .i1⟩
  | .hbm, ⟨8, _⟩ => ⟨S32x2048x2048, .i32⟩
  | .hbm, ⟨9, _⟩ => ⟨S32x2048x64, .f32⟩
  | .hbm, ⟨10, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  shapeCasts_S2x16x2048x2048_S32x2048x2048 : S2x16x2048x2048.ShapeCasts S32x2048x2048
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S32x2048x2048.size a
  hwx0_3 : ∀ i : grid0.Coords, EltTy.bits .i32 = 32 ∨ (Rect.block (s := S32x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S32x2048x64.size a
  hwx0_4 : ∀ i : grid0.Coords, EltTy.bits .f32 = 32 ∨ (Rect.block (s := S32x2048x64) S1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibAttnRow.lean ====
/-
  Masked softmax attention on one query row, in the two spellings this certificate compares, and the laws that
  join them.

  One query row `q` (head dimension `d`) meets `n` keys `k j` and values. The SCORE of key `j` is the inner
  product `∑ e, q e · k j e` scaled by `1/8`, replaced by the fill value `-1e9` where the mask bit is set. One
  spelling scales the query first, by the word of `0.125`; the other divides the inner product by the word of `8`.
  The row's WEIGHTS are `exp (s j - M)` for `M` the largest score (folded from `-∞`), their sum the DENOMINATOR
  `L`, and the output in value column `c` is the weighted mean of the values. One spelling normalises each weight,
  `∑ j, (w j / L) · v j`; the other normalises the finished sum, `(∑ j, w j · v j) · (1 / L)`.

  On the extended reals these agree where every entry is a REAL: a factor moves across a finite sum, and `L`, a sum
  of exponentials of reals over a non-empty row, is a positive real, so dividing by it is multiplying by `1 / L`.
-/
import Idealize.ShloMosaic.PureOps.Ideal
import Idealize.ShloMosaic.PureOps.Ideal.Laws
import proofs.«156598_j87368224735273_2_alg».proof.Proof.LibRealOps

noncomputable section

open scoped BigOperators

namespace Cert.Attn

open Idealize.ShloMosaic

/-! ## The words the two programs spell -/

/-- `0.125`, the factor the scaled query carries. -/
theorem eighth_word : Ideal.ofBits .f32 0x3E000000#32 = ((1 / 8 : ℝ) : EReal) := by
  simp [Ideal.ofBits, Ideal.ieee, -EReal.coe_mul]; norm_num

/-- `8.0`, the divisor of the inner product. -/
theorem eight_word : Ideal.ofBits .f32 0x41000000#32 = ((8 : ℝ) : EReal) := by
  simp [Ideal.ofBits, Ideal.ieee, -EReal.coe_mul]; norm_num

/-- `1.0`, the numerator of the reciprocal of the denominator. -/
theorem one_word : Ideal.ofBits .f32 0x3F800000#32 = ((1 : ℝ) : EReal) := by
  simp [Ideal.ofBits, Ideal.ieee, -EReal.coe_mul]; norm_num

/-- The word of `-∞`, from which a row's maximum is folded. -/
theorem seed_word : Ideal.ofBits .f32 0xFF800000#32 = ⊥ := by
  simp [Ideal.ofBits, Ideal.ieee]

/-- The fill value `-1e9` is a real (which real does not matter: both spellings carry the same word). -/
theorem fill_word : ∃ r : ℝ, Ideal.ofBits .f32 0xCE6E6B28#32 = (r : EReal) := by
  have ht : Ideal.ofBits .f32 0xCE6E6B28#32 ≠ ⊤ := by simp [Ideal.ofBits, Ideal.ieee, -EReal.coe_mul]
  have hb : Ideal.ofBits .f32 0xCE6E6B28#32 ≠ ⊥ := by simp [Ideal.ofBits, Ideal.ieee, -EReal.coe_mul]
  exact ⟨_, (EReal.coe_toReal ht hb).symm⟩

/-- A mask bit widened to a word and tested against zero is the bit. -/
theorem ne_zero_of_widened (b : BitVec 1) : IntOp.cmpi .ne (b.setWidth 32) 0#32 = b := by
  revert b; decide

variable {n d : ℕ}

/-! ## One row -/

/-- The score of key `j`, the inner product divided by `8`, the fill where masked. -/
def scoreDiv (q : Fin d → EReal) (k : Fin n → Fin d → EReal) (mk : Fin n → BitVec 1) (j : Fin n) : EReal :=
  Scalar.select (mk j) (Ideal.ofBits .f32 0xCE6E6B28#32) (Ideal.div (∑ e, q e * k j e) (Ideal.ofBits .f32 0x41000000#32))

/-- The score of key `j`, the query scaled by `0.125` first, the fill where masked. -/
def scoreMul (q : Fin d → EReal) (k : Fin n → Fin d → EReal) (mk : Fin n → BitVec 1) (j : Fin n) : EReal :=
  Scalar.select (mk j) (Ideal.ofBits .f32 0xCE6E6B28#32) (∑ e, (q e * Ideal.ofBits .f32 0x3E000000#32) * k j e)

/-- The largest score of the row, folded from `-∞`. -/
def rowMax (s : Fin n → EReal) : EReal := (Finset.univ : Finset (Fin n)).fold max (Ideal.ofBits .f32 0xFF800000#32) s

/-- The weight of key `j`. -/
def weight (s : Fin n → EReal) (j : Fin n) : EReal := Ideal.exp (s j - rowMax s)

/-- The sum of the weights. -/
def denom (s : Fin n → EReal) : EReal := ∑ j, weight s j

/-- Each weight normalised, then the weighted sum of the values. -/
def attnEach (s v : Fin n → EReal) : EReal :=
  ∑ j, Ideal.div (weight s j) (Ideal.ofBits .f32 0x00000000#32 + denom s) * v j

/-- The weighted sum of the values, then normalised once. -/
def attnOnce (s v : Fin n → EReal) : EReal :=
  (∑ j, weight s j * v j) * Ideal.div (Ideal.ofBits .f32 0x3F800000#32) (denom s)

/-! ## The laws -/

/-- Scaling the query by `1/8` before the inner product, or dividing the inner product by `8`: the same score
    where the query and the keys are reals. -/
theorem scoreMul_eq_scoreDiv (q : Fin d → EReal) (k : Fin n → Fin d → EReal) (mk : Fin n → BitVec 1)
    (hq : ∀ e, ∃ r : ℝ, q e = (r : EReal)) (hk : ∀ j e, ∃ r : ℝ, k j e = (r : EReal)) :
    scoreMul q k mk = scoreDiv q k mk := by
  choose q' hq' using hq
  choose k' hk' using hk
  funext j
  unfold scoreMul scoreDiv
  congr 1
  rw [eighth_word, eight_word, Ideal.div_coe (by norm_num : (8 : ℝ) ≠ 0)]
  simp only [hq', hk', ← EReal.coe_mul]
  rw [← ProofLib.RealOps.coe_sum, ← ProofLib.RealOps.coe_sum, ← EReal.coe_mul, Finset.sum_mul]
  exact congrArg _ (Finset.sum_congr rfl fun e _ => by ring)

/-- A score is a real where the query and the keys are. -/
theorem scoreDiv_real (q : Fin d → EReal) (k : Fin n → Fin d → EReal) (mk : Fin n → BitVec 1)
    (hq : ∀ e, ∃ r : ℝ, q e = (r : EReal)) (hk : ∀ j e, ∃ r : ℝ, k j e = (r : EReal)) (j : Fin n) :
    ∃ r : ℝ, scoreDiv q k mk j = (r : EReal) := by
  choose q' hq' using hq
  choose k' hk' using hk
  obtain ⟨f, hf⟩ := fill_word
  unfold scoreDiv Scalar.select
  split
  · exact ⟨f, hf⟩
  · rw [eight_word, Ideal.div_coe (by norm_num : (8 : ℝ) ≠ 0)]
    simp only [hq', hk', ← EReal.coe_mul]
    rw [← ProofLib.RealOps.coe_sum, ← EReal.coe_mul]
    exact ⟨_, rfl⟩

/-- The largest of `n > 0` real scores is a real. -/
theorem rowMax_real (hn : 0 < n) (s : Fin n → ℝ) : ∃ M : ℝ, rowMax (fun j => (s j : EReal)) = (M : EReal) := by
  have hne : (Finset.univ : Finset (Fin n)).Nonempty := ⟨⟨0, hn⟩, Finset.mem_univ _⟩
  refine ⟨Finset.univ.sup' hne s, ?_⟩
  unfold rowMax
  rw [seed_word]
  apply le_antisymm
  · rw [Finset.fold_max_le]
    exact ⟨bot_le, fun j hj => EReal.coe_le_coe_iff.mpr (Finset.le_sup' s hj)⟩
  · obtain ⟨j, hj, e⟩ := Finset.exists_mem_eq_sup' hne s
    rw [Finset.le_fold_max]
    exact Or.inr ⟨j, hj, by rw [e]⟩

/-- Normalising each weight or the finished sum: the same output where the scores and the values are reals and the
    row is not empty. -/
theorem attnOnce_eq_attnEach (hn : 0 < n) (s v : Fin n → EReal)
    (hs : ∀ j, ∃ r : ℝ, s j = (r : EReal)) (hv : ∀ j, ∃ r : ℝ, v j = (r : EReal)) :
    attnOnce s v = attnEach s v := by
  choose s' hs' using hs
  choose v' hv' using hv
  obtain rfl : s = fun j => (s' j : EReal) := funext hs'
  obtain ⟨M, hM⟩ := rowMax_real hn s'
  have hw : ∀ j, weight (fun j => (s' j : EReal)) j = ((Real.exp (s' j - M) : ℝ) : EReal) := fun j => by
    unfold weight
    rw [hM, ← EReal.coe_sub, Ideal.exp_coe]
  have hL : denom (fun j => (s' j : EReal)) = ((∑ j, Real.exp (s' j - M) : ℝ) : EReal) := by
    unfold denom
    rw [ProofLib.RealOps.coe_sum]
    exact Finset.sum_congr rfl fun j _ => hw j
  have hpos : (0 : ℝ) < ∑ j : Fin n, Real.exp (s' j - M) :=
    Finset.sum_pos (fun j _ => Real.exp_pos _) ⟨⟨0, hn⟩, Finset.mem_univ _⟩
  unfold attnOnce attnEach
  rw [hL, Ideal.ofBits_zero_f32, zero_add, one_word, Ideal.div_coe hpos.ne']
  simp only [hw, hv', Ideal.div_coe hpos.ne', ← EReal.coe_mul]
  rw [← ProofLib.RealOps.coe_sum, ← ProofLib.RealOps.coe_sum, ← EReal.coe_mul, Finset.sum_mul]
  exact congrArg _ (Finset.sum_congr rfl fun j _ => by ring)

end Cert.Attn

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«156598_j87368224735273_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.KerPayload.lean ====
/-
  The kernel body's stored block, read at one entry.

  The body loads a `1024 × 64` block of queries, the head's `2048 × 64` keys and values and the `1024 × 2048` block of
  the mask, and stores one `1024 × 64` block. Its row `p`, column `c` is masked softmax attention of query row `p`
  in the normalise-once spelling: the scores are the inner products of the scaled query row with the key rows, set
  to the fill where the mask word is not zero; the weights are the exponentials of the scores less the row's largest;
  and the entry is the weighted sum of value column `c` times the reciprocal of the sum of the weights.
-/
import proofs.«156598_j87368224735273_2_alg».proof.Proof.Gen.KernelIdeal.Skeleton
import proofs.«156598_j87368224735273_2_alg».proof.Proof.LibAttnRow
import proofs.«156598_j87368224735273_2_alg».proof.Proof.LibBlockOps
import proofs.«156598_j87368224735273_2_alg».proof.Proof.LibPlainDot
import proofs.«156598_j87368224735273_2_alg».proof.Proof.LibColumn
import proofs.«156598_j87368224735273_2_alg».proof.Proof.LibReshape

noncomputable section

open scoped BigOperators

namespace Cert.KernelIdeal.Body

open Cert.KernelIdeal Cert.KernelIdeal.Facts₀ Idealize.ShloMosaic Idealize.ShloMosaic.ValueIdx

variable [Facts]

/-- The block of masked scores: query rows by key rows. -/
def scores (x0 : Vec Ideal S1x1024x64 .f32) (x1 : Vec Ideal S1x2048x64 .f32) (x3 : Vec Ideal S1x1024x2048 .i32) :
    FVec Ideal S1024x2048 .f32 :=
  select (cmpi .ne (shapeCast S1024x2048 x3 shapeCasts_S1x1024x2048_S1024x2048 : IVec S1024x2048 32) (constantI S1024x2048 32 0#32))
    (broadcast S1024x2048 (Scalar.ofBits (F := Ideal) .f32 0xCE6E6B28#32))
    (matmul dot_S1024x64_S2048x64_S1024x2048_1_1_0_0_n_n none
      (truncf .bf16 (mulf (shapeCast S1024x64 x0 shapeCasts_S1x1024x64_S1024x64 : FVec Ideal S1024x64 .f32)
        (broadcast S1024x64 (Scalar.ofBits (F := Ideal) .f32 0x3E000000#32))) bitsLt_bf16_f32)
      (truncf .bf16 (shapeCast S2048x64 x1 shapeCasts_S1x2048x64_S2048x64 : FVec Ideal S2048x64 .f32) bitsLt_bf16_f32)
      (constant S1024x2048 .f32 0x00000000#32))

/-- The block of weights: the exponentials of the scores less each row's largest. -/
def weights (s : FVec Ideal S1024x2048 .f32) : FVec Ideal S1024x2048 .f32 :=
  exp (subf s (broadcastTo S1024x2048
    (shapeCast S1024x1 (multiReduction .maximumf [1] S1024 s 0xFF800000#32 reduces_S1024x2048_S1024 (.inl rfl) rfl)
      shapeCasts_S1024_S1024x1) broadcasts_S1024x1_S1024x2048))

/-- The stored block is the weights times the values, each row times the reciprocal of its weights' sum. -/
theorem pay_eq (x0 : Vec Ideal S1x1024x64 .f32) (x1 x2 : Vec Ideal S1x2048x64 .f32) (x3 : Vec Ideal S1x1024x2048 .i32) :
    Gen.k0_pay1 (F := Ideal) x0 x1 x2 x3
      = shapeCast S1x1024x64
          (mulf (matmul dot_S1024x2048_S2048x64_S1024x64_1_0_0_1_n_n none
              (truncf .bf16 (weights (scores x0 x1 x3)) bitsLt_bf16_f32)
              (truncf .bf16 (shapeCast S2048x64 x2 shapeCasts_S1x2048x64_S2048x64 : FVec Ideal S2048x64 .f32) bitsLt_bf16_f32)
              (constant S1024x64 .f32 0x00000000#32))
            (broadcastTo S1024x64
              (divf (broadcast S1024x1 (Scalar.ofBits (F := Ideal) .f32 0x3F800000#32))
                (shapeCast S1024x1 (multiReduction .add [1] S1024 (weights (scores x0 x1 x3)) 0x00000000#32
                  reduces_S1024x2048_S1024 (.inl rfl) rfl) shapeCasts_S1024_S1024x1))
              broadcasts_S1024x1_S1024x64))
          shapeCasts_S1024x64_S1x1024x64 := rfl

/-- A masked score at query row `p`, key `j`. -/
theorem scores_apply (x0 : Vec Ideal S1x1024x64 .f32) (x1 : Vec Ideal S1x2048x64 .f32) (x3 : Vec Ideal S1x1024x2048 .i32)
    (p : Fin 1024) (j : Fin 2048) :
    scores x0 x1 x3 (ix2 p j)
      = Cert.Attn.scoreMul (fun e : Fin 64 => x0 (ix3 (0 : Fin 1) p e)) (fun (j : Fin 2048) (e : Fin 64) => x1 (ix3 (0 : Fin 1) j e))
          (fun j : Fin 2048 => IntOp.cmpi .ne (x3 (ix3 (0 : Fin 1) p j)) 0#32) j := by
  unfold scores Cert.Attn.scoreMul
  rw [select_apply]
  refine congr (congrArg (fun b => Scalar.select b (Ideal.ofBits .f32 0xCE6E6B28#32)) ?_) ?_
  · show IntOp.cmpi .ne (shapeCast S1024x2048 x3 shapeCasts_S1x1024x2048_S1024x2048 (ix2 p j)) 0#32 = _
    rw [Cert.Lib.Reshape.merge_apply x3 shapeCasts_S1x1024x2048_S1024x2048 (0 : Fin 1) p j p (by simp)]
  · refine (Cert.Lib.BlockOps.matmul_rows_apply dot_S1024x64_S2048x64_S1024x2048_1_1_0_0_n_n_wf none _ _ p j).trans ?_
    refine Finset.sum_congr rfl fun e _ => ?_
    show shapeCast S1024x64 x0 shapeCasts_S1x1024x64_S1024x64 (ix2 p e) * Ideal.ofBits .f32 0x3E000000#32
        * shapeCast S2048x64 x1 shapeCasts_S1x2048x64_S2048x64 (ix2 j e) = _
    rw [Cert.Lib.Reshape.merge_apply x0 shapeCasts_S1x1024x64_S1024x64 (0 : Fin 1) p e p (by simp),
      Cert.Lib.Reshape.merge_apply x1 shapeCasts_S1x2048x64_S2048x64 (0 : Fin 1) j e j (by simp)]

/-- A weight at row `p`, key `j`, from the row's scores. -/
theorem weights_apply (s : FVec Ideal S1024x2048 .f32) (p : Fin 1024) (j : Fin 2048) :
    weights s (ix2 p j) = Cert.Attn.weight (fun k : Fin 2048 => s (ix2 p k)) j := by
  unfold weights Cert.Attn.weight Cert.Attn.rowMax
  show Ideal.exp (s (ix2 p j) - broadcastTo S1024x2048 (shapeCast S1024x1 _ shapeCasts_S1024_S1024x1) broadcasts_S1024x1_S1024x2048 (ix2 p j)) = _
  rw [Cert.Lib.BlockOps.colSpread_apply]
  exact congrArg (fun m => Ideal.exp (s (ix2 p j) - m))
    (Cert.Lib.BlockOps.rowMax_apply s 0xFF800000#32 reduces_S1024x2048_S1024 (.inl rfl) rfl p)

/-- The stored block at row `p`, column `c`. -/
theorem pay_apply (x0 : Vec Ideal S1x1024x64 .f32) (x1 x2 : Vec Ideal S1x2048x64 .f32) (x3 : Vec Ideal S1x1024x2048 .i32)
    (p : Fin 1024) (c : Fin 64) :
    Gen.k0_pay1 (F := Ideal) x0 x1 x2 x3 (ix3 (0 : Fin 1) p c)
      = Cert.Attn.attnOnce
          (Cert.Attn.scoreMul (fun e : Fin 64 => x0 (ix3 (0 : Fin 1) p e)) (fun (j : Fin 2048) (e : Fin 64) => x1 (ix3 (0 : Fin 1) j e))
            (fun j : Fin 2048 => IntOp.cmpi .ne (x3 (ix3 (0 : Fin 1) p j)) 0#32))
          (fun j : Fin 2048 => x2 (ix3 (0 : Fin 1) j c)) := by
  have hs : (fun k : Fin 2048 => scores x0 x1 x3 (ix2 p k))
      = Cert.Attn.scoreMul (fun e : Fin 64 => x0 (ix3 (0 : Fin 1) p e)) (fun (j : Fin 2048) (e : Fin 64) => x1 (ix3 (0 : Fin 1) j e))
          (fun j : Fin 2048 => IntOp.cmpi .ne (x3 (ix3 (0 : Fin 1) p j)) 0#32) := funext fun k => scores_apply x0 x1 x3 p k
  rw [pay_eq, Cert.Lib.Reshape.split_apply _ shapeCasts_S1024x64_S1x1024x64 (0 : Fin 1) p c p (by simp), mulf_apply]
  unfold Cert.Attn.attnOnce Cert.Attn.denom
  rw [← hs]
  refine congr (congrArg HMul.hMul ?_) ?_
  · refine (Cert.Lib.PlainDot.matmul_zero_apply none _ _ p c).trans ?_
    refine Finset.sum_congr rfl fun j _ => ?_
    show weights (scores x0 x1 x3) (ix2 p j) * shapeCast S2048x64 x2 shapeCasts_S1x2048x64_S2048x64 (ix2 j c) = _
    rw [weights_apply, Cert.Lib.Reshape.merge_apply x2 shapeCasts_S1x2048x64_S2048x64 (0 : Fin 1) j c j (by simp)]
  · rw [Cert.Lib.Column.colBroadcast_apply, divf_apply, broadcast_apply, Cert.Lib.Column.col_apply]
    refine congrArg (Ideal.div (Ideal.ofBits .f32 0x3F800000#32)) ?_
    refine (Cert.Lib.BlockOps.rowSum_apply (weights (scores x0 x1 x3)) 0x00000000#32 reduces_S1024x2048_S1024 (.inl rfl) rfl p).trans ?_
    exact Finset.sum_congr rfl fun j _ => weights_apply _ p j

end Cert.KernelIdeal.Body

end
-- ==== Proof.KerBlocks.lean ====
/-
  From the blocks the grid points write back to the region's whole output array.

  The grid has a point per (head, half of the query rows). Point `(g, qi)` reads query rows `qi·1024 …` of head `g`,
  all of that head's keys and values, and the matching block of the mask, and writes output rows `qi·1024 …` of head
  `g`. So the region's output array holds, at head `g`, row `r`, column `c`, masked softmax attention of query row `r`
  of head `g` against that head's keys and values: one function of the arrays the region finds. Every index of the
  output lies in exactly the block of the point `(g, r / 1024)`.
-/
import proofs.«156598_j87368224735273_2_alg».proof.Proof.Gen.KernelIdeal.Frame
import proofs.«156598_j87368224735273_2_alg».proof.Proof.KerPayload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

/-- Attention of head `g`, query row `r`, value column `c`, over head-major arrays. -/
def headAttn (a0 a1 a2 : S32x2048x64.Idx → EReal) (a4 : S32x2048x2048.Idx → BitVec 32) (g : Fin 32) (r : Fin 2048) (c : Fin 64) : EReal :=
  Cert.Attn.attnOnce
    (Cert.Attn.scoreMul (fun e : Fin 64 => a0 (ix3 g r e)) (fun (j : Fin 2048) (e : Fin 64) => a1 (ix3 g j e))
      (fun j : Fin 2048 => IntOp.cmpi .ne (a4 (ix3 g r j)) 0#32))
    (fun j : Fin 2048 => a2 (ix3 g j c))

/-- The region's output array as one function of the arrays the region finds. -/
def regionOut (a0 a1 a2 : S32x2048x64.Idx → EReal) (a4 : S32x2048x2048.Idx → BitVec 32) : S32x2048x64.Idx → EReal :=
  fun i => headAttn a0 a1 a2 a4 (i 0) (i 1) (i 2)

/-- The array at an index whose coordinates are known. -/
theorem regionOut_at (a0 a1 a2 : S32x2048x64.Idx → EReal) (a4 : S32x2048x2048.Idx → BitVec 32) (i : S32x2048x64.Idx)
    (g : Fin 32) (r : Fin 2048) (c : Fin 64) (h0 : (i 0).val = g.val) (h1 : (i 1).val = r.val) (h2 : (i 2).val = c.val) :
    regionOut a0 a1 a2 a4 i = headAttn a0 a1 a2 a4 g r c := by
  have e : i = ix3 g r c := funext fun a => Fin.ext (by
    match a with
    | ⟨0, _⟩ => exact h0
    | ⟨1, _⟩ => exact h1
    | ⟨2, _⟩ => exact h2)
  subst e
  rfl

variable (m : (ℓ : Loc nD τ sig) → Buf (Elt Ideal) ℓ)

theorem hz : (![0, 0, 0] : Fin 3 → Nat) = fun _ => 0 := funext fun a => by fin_cases a <;> rfl

/-- The printed index maps, decided over the grid: the query, mask and output blocks move together, the key and value
    blocks follow the head only. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) < 32 ∧ win0_4.index t (1 : Fin 3) < 2 :=
  (by decide +kernel : ∀ t : Fin grid0.N, _)

/-- Every (head, half) is some point's output block. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-! ## The input blocks at a point, read off the arrays -/

theorem qblk_apply (c : Dev nD) (t : Fin cfg0.N) (p : Fin 1024) (e : Fin 64) (g : Fin 32) (r : Fin 2048)
    (hg : g.val = win0_4.index t (0 : Fin 3)) (hr : r.val = win0_4.index t (1 : Fin 3) * 1024 + p.val) :
    iblk m c 0 t (ix3 (0 : Fin 1) p e) = V m c main_v0 (ix3 g r e) := by
  obtain ⟨e00, e01, e02, -⟩ := idx_facts t
  show V m c main_v0 (((cfg0.win 0).blk t).view.emb (ix3 (0 : Fin 1) p e)) = V m c main_v0 (ix3 g r e)
  refine congrArg (V m c main_v0) (funext fun a => Fin.ext ?_)
  match a with
  | ⟨0, _⟩ => show win0_0.index t (0 : Fin 3) * 1 + 1 * 0 = g.val; omega
  | ⟨1, _⟩ => show win0_0.index t (1 : Fin 3) * 1024 + 1 * p.val = r.val; omega
  | ⟨2, _⟩ => show win0_0.index t (2 : Fin 3) * 64 + 1 * e.val = e.val; omega

theorem kblk_apply (c : Dev nD) (t : Fin cfg0.N) (j : Fin 2048) (e : Fin 64) (g : Fin 32)
    (hg : g.val = win0_4.index t (0 : Fin 3)) :
    iblk m c 1 t (ix3 (0 : Fin 1) j e) = V m c main_v1 (ix3 g j e) := by
  obtain ⟨-, -, -, e10, e11, e12, -⟩ := idx_facts t
  show V m c main_v1 (((cfg0.win 1).blk t).view.emb (ix3 (0 : Fin 1) j e)) = V m c main_v1 (ix3 g j e)
  refine congrArg (V m c main_v1) (funext fun a => Fin.ext ?_)
  match a with
  | ⟨0, _⟩ => show win0_1.index t (0 : Fin 3) * 1 + 1 * 0 = g.val; omega
  | ⟨1, _⟩ => show win0_1.index t (1 : Fin 3) * 2048 + 1 * j.val = j.val; omega
  | ⟨2, _⟩ => show win0_1.index t (2 : Fin 3) * 64 + 1 * e.val = e.val; omega

theorem vblk_apply (c : Dev nD) (t : Fin cfg0.N) (j : Fin 2048) (e : Fin 64) (g : Fin 32)
    (hg : g.val = win0_4.index t (0 : Fin 3)) :
    iblk m c 2 t (ix3 (0 : Fin 1) j e) = V m c main_v2 (ix3 g j e) := by
  obtain ⟨-, -, -, -, -, -, e20, e21, e22, -⟩ := idx_facts t
  show V m c main_v2 (((cfg0.win 2).blk t).view.emb (ix3 (0 : Fin 1) j e)) = V m c main_v2 (ix3 g j e)
  refine congrArg (V m c main_v2) (funext fun a => Fin.ext ?_)
  match a with
  | ⟨0, _⟩ => show win0_2.index t (0 : Fin 3) * 1 + 1 * 0 = g.val; omega
  | ⟨1, _⟩ => show win0_2.index t (1 : Fin 3) * 2048 + 1 * j.val = j.val; omega
  | ⟨2, _⟩ => show win0_2.index t (2 : Fin 3) * 64 + 1 * e.val = e.val; omega

theorem mblk_apply (c : Dev nD) (t : Fin cfg0.N) (p : Fin 1024) (j : Fin 2048) (g : Fin 32) (r : Fin 2048)
    (hg : g.val = win0_4.index t (0 : Fin 3)) (hr : r.val = win0_4.index t (1 : Fin 3) * 1024 + p.val) :
    iblk m c 3 t (ix3 (0 : Fin 1) p j) = V m c main_v4 (ix3 g r j) := by
  obtain ⟨-, -, -, -, -, -, -, -, -, e30, e31, e32, -⟩ := idx_facts t
  show V m c main_v4 (((cfg0.win 3).blk t).view.emb (ix3 (0 : Fin 1) p j)) = V m c main_v4 (ix3 g r j)
  refine congrArg (V m c main_v4) (funext fun a => Fin.ext ?_)
  match a with
  | ⟨0, _⟩ => show win0_3.index t (0 : Fin 3) * 1 + 1 * 0 = g.val; omega
  | ⟨1, _⟩ => show win0_3.index t (1 : Fin 3) * 1024 + 1 * p.val = r.val; omega
  | ⟨2, _⟩ => show win0_3.index t (2 : Fin 3) * 2048 + 1 * j.val = j.val; omega

/-! ## What a point writes back -/

/-- What point `t` writes back is block `t` of the one function of the arrays the region finds. -/
theorem flushed_eq (c : Dev nD) (t : Fin cfg0.N) :
    (dats m 0 c).flushed 4 t
      = ((cfg0.win 4).blk t).view.read (Elt Ideal) (regionOut (V m c main_v0) (V m c main_v1) (V m c main_v2) (V m c main_v4)) := by
  show (cfg0.win 4).cut (grid0.coords t) ((dats m 0 c).after 4 t) = _
  rw [after0_4]
  unfold out0_4
  rw [View.canon_unit_zero hz]
  simp only [View.ld_unit_zero (S := S1x1024x64) hz, View.ld_unit_zero (S := S1x2048x64) hz, View.ld_unit_zero (S := S1x1024x2048) hz]
  obtain ⟨-, -, -, -, -, -, -, -, -, -, -, -, e42, b0, b1⟩ := idx_facts t
  funext y
  obtain ⟨p, q, rfl⟩ : ∃ (p : Fin 1024) (q : Fin 64), y = ix3 (0 : Fin 1) p q :=
    ⟨y 1, y 2, funext fun a => by
      match a with
      | ⟨0, _⟩ => exact Subsingleton.elim (α := Fin 1) _ _
      | ⟨1, _⟩ => rfl
      | ⟨2, _⟩ => rfl⟩
  have hg : (⟨win0_4.index t (0 : Fin 3), b0⟩ : Fin 32).val = win0_4.index t (0 : Fin 3) := rfl
  have hp := p.isLt
  have hr : (⟨win0_4.index t (1 : Fin 3) * 1024 + p.val, by omega⟩ : Fin 2048).val = win0_4.index t (1 : Fin 3) * 1024 + p.val := rfl
  show k0_pay1 (iblk m c 0 t) (iblk m c 1 t) (iblk m c 2 t) (iblk m c 3 t) (ix3 (0 : Fin 1) p q)
      = regionOut (V m c main_v0) (V m c main_v1) (V m c main_v2) (V m c main_v4) (((cfg0.win 4).blk t).view.emb (ix3 (0 : Fin 1) p q))
  rw [regionOut_at _ _ _ _ _ ⟨win0_4.index t (0 : Fin 3), b0⟩ ⟨win0_4.index t (1 : Fin 3) * 1024 + p.val, by omega⟩ q
    (by show win0_4.index t (0 : Fin 3) * 1 + 1 * 0 = win0_4.index t (0 : Fin 3); omega)
    (by show win0_4.index t (1 : Fin 3) * 1024 + 1 * p.val = win0_4.index t (1 : Fin 3) * 1024 + p.val; omega)
    (by show win0_4.index t (2 : Fin 3) * 64 + 1 * q.val = q.val; omega)]
  refine (Cert.KernelIdeal.Body.pay_apply (iblk m c 0 t) (iblk m c 1 t) (iblk m c 2 t) (iblk m c 3 t) p q).trans ?_
  unfold headAttn
  exact congr (congrArg Cert.Attn.attnOnce
      (congr (congr (congrArg Cert.Attn.scoreMul (funext fun e => qblk_apply m c t p e _ _ hg hr))
        (funext fun j => funext fun e => kblk_apply m c t j e _ hg))
        (funext fun j => congrArg (fun w => IntOp.cmpi .ne w 0#32) (mblk_apply m c t p j _ _ hg hr))))
    (funext fun j => vblk_apply m c t j q _ hg)

/-! ## The cover -/

/-- An index of the array is in point `t`'s block iff each coordinate is in the block's range on its axis. -/
theorem mem_blk (t : Fin cfg0.N) (i : S32x2048x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v5).slice (win0_4.rect t)).set ↔ _
  rw [View.set_slice_whole, Rect.mem_set_unit]
  exact Iff.rfl

/-- Every index of the output array is in some point's block. -/
theorem cover (i : S32x2048x64.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- The region's output array after the run. -/
theorem final (c : Dev nD) :
    (dats m 0 c).arrAt 4 cfg0.N = regionOut (V m c main_v0) (V m c main_v1) (V m c main_v2) (V m c main_v4) :=
  (dats m 0 c).arrAt_eq_of_cover 4 _ (fun t _ => flushed_eq m c t) cover

end Cert.KernelIdeal.Blocks

end
-- ==== Proof.KerHost.lean ====
/-
  The kernel program's result buffer as a function of its arguments.

  Before the region the four arguments are re-read head-major: batch `b`, head `h` becomes head `b·16 + h` (a row-major
  reshape keeps every entry's position), and the mask bits are widened to words. After the region the output array
  is re-read as `[2, 16, 2048, 64]` the same way. So the result at `(b, h, r, c)` is the region's output at head
  `b·16 + h`, row `r`, column `c`: masked softmax attention of query row `(b, h, r)` against the keys and values of
  `(b, h)`, in the normalise-once spelling, the mask word's test against zero being the mask bit itself.
-/
import proofs.«156598_j87368224735273_2_alg».proof.Proof.KerBlocks
import proofs.«156598_j87368224735273_2_alg».proof.Proof.LibReshape
import Idealize.ShloMosaic.Lib.StableHlo.Run

set_option maxRecDepth 16384

noncomputable section

open scoped BigOperators

namespace Cert.KernelIdeal.Host

open Cert.KernelIdeal Cert.KernelIdeal.Gen Cert.KernelIdeal.Blocks Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## The arrays the region finds -/

theorem V_main_v0 (c : Dev nD) : (V m c main_v0 : S32x2048x64.Idx → EReal)
    = shapeCast S32x2048x64 (m ((c : Thread nD τ).loc main_arg0)) Facts₀.shapeCasts_S2x16x2048x64_S32x2048x64 := by
  show StableHlo.after hostOps0 (fun b => m (c, b)) (Proc.devRef .tc main_v0) = _
  after_results
  rfl

theorem V_main_v1 (c : Dev nD) : (V m c main_v1 : S32x2048x64.Idx → EReal)
    = shapeCast S32x2048x64 (m ((c : Thread nD τ).loc main_arg1)) Facts₀.shapeCasts_S2x16x2048x64_S32x2048x64 := by
  show StableHlo.after hostOps0 (fun b => m (c, b)) (Proc.devRef .tc main_v1) = _
  after_results
  rfl

theorem V_main_v2 (c : Dev nD) : (V m c main_v2 : S32x2048x64.Idx → EReal)
    = shapeCast S32x2048x64 (m ((c : Thread nD τ).loc main_arg2)) Facts₀.shapeCasts_S2x16x2048x64_S32x2048x64 := by
  show StableHlo.after hostOps0 (fun b => m (c, b)) (Proc.devRef .tc main_v2) = _
  after_results
  rfl

theorem V_main_v4 (c : Dev nD) : (V m c main_v4 : S32x2048x2048.Idx → BitVec 32)
    = extui 32 (shapeCast S32x2048x2048 (m ((c : Thread nD τ).loc main_arg3)) Facts₀.shapeCasts_S2x16x2048x2048_S32x2048x2048 : IVec S32x2048x2048 1)
        Facts₀.natLt_1_32 := by
  show StableHlo.after hostOps0 (fun b => m (c, b)) (Proc.devRef .tc main_v4) = _
  after_results
  rfl

/-! ## The result buffer -/

/-- The result buffer after the lines that follow the region: the region's output array re-read at rank four. -/
theorem tail_v6 (c : Dev nD) :
    (Pipeline.afterTail₀ cfgs (dats m) 0 (V0 m) [hostOps1] c main_v6 : S2x16x2048x64.Idx → EReal)
      = shapeCast S2x16x2048x64 (regionOut (V m c main_v0) (V m c main_v1) (V m c main_v2) (V m c main_v4))
          Facts₀.shapeCasts_S32x2048x64_S2x16x2048x64 := by
  unfold Pipeline.afterTail₀
  show StableHlo.after hostOps1 _ (Proc.devRef .tc main_v6) = _
  after_results
  have e : (Pipeline.withArrays (cfgs 0).spec c (V0 m c) (fun w => (dats m 0 c).arrAt w (cfgs 0).N) (Proc.devRef .tc main_v5)
        : S32x2048x64.Idx → EReal)
      = regionOut (V m c main_v0) (V m c main_v1) (V m c main_v2) (V m c main_v4) :=
    (Pipeline.withArrays_arr spec0 launch0.win.arr_inj c _ _ 4).trans (final m c)
  exact congrArg (fun x : S32x2048x64.Idx → EReal => shapeCast S2x16x2048x64 x Facts₀.shapeCasts_S32x2048x64_S2x16x2048x64) e

/-- A head-major array re-read at rank four: entry `(b, h, r, c)` is the entry of head `b·16 + h`. -/
theorem three_four {α : Type} (x : S32x2048x64.Idx → α) (hc : S32x2048x64.ShapeCasts S2x16x2048x64)
    (b : Fin 2) (h : Fin 16) (r : Fin 2048) (q : Fin 64) (g : Fin 32) (hg : g.val = b.val * 16 + h.val) :
    shapeCast S2x16x2048x64 x hc (ix4 b h r q) = x (ix3 g r q) :=
  shapeCast_apply x hc _ _ (by
    rw [Shape.rowMajor_val_three, Shape.rowMajor_val_four]
    show (g.val * 2048 + r.val) * 64 + q.val = ((b.val * 16 + h.val) * 2048 + r.val) * 64 + q.val
    rw [hg])

/-- The result at `(b, h, r, q)` from the arguments: attention of that query row in the normalise-once spelling. -/
theorem result_apply (c : Dev nD) (b : Fin 2) (h : Fin 16) (r : Fin 2048) (q : Fin 64) :
    shapeCast S2x16x2048x64 (regionOut (V m c main_v0) (V m c main_v1) (V m c main_v2) (V m c main_v4))
        Facts₀.shapeCasts_S32x2048x64_S2x16x2048x64 (ix4 b h r q)
      = Cert.Attn.attnOnce
          (Cert.Attn.scoreMul (fun e : Fin 64 => (m ((c : Thread nD τ).loc main_arg0) : S2x16x2048x64.Idx → EReal) (ix4 b h r e))
            (fun (j : Fin 2048) (e : Fin 64) => (m ((c : Thread nD τ).loc main_arg1) : S2x16x2048x64.Idx → EReal) (ix4 b h j e))
            (fun j : Fin 2048 => (m ((c : Thread nD τ).loc main_arg3) : S2x16x2048x2048.Idx → BitVec 1) (ix4 b h r j)))
          (fun j : Fin 2048 => (m ((c : Thread nD τ).loc main_arg2) : S2x16x2048x64.Idx → EReal) (ix4 b h j q)) := by
  have hb := b.isLt
  have hh := h.isLt
  have hgl : b.val * 16 + h.val < 32 := by omega
  rw [three_four _ _ b h r q ⟨b.val * 16 + h.val, hgl⟩ rfl]
  show headAttn (V m c main_v0) (V m c main_v1) (V m c main_v2) (V m c main_v4) ⟨b.val * 16 + h.val, hgl⟩ r q = _
  unfold headAttn
  rw [V_main_v0, V_main_v1, V_main_v2, V_main_v4]
  refine congr (congrArg Cert.Attn.attnOnce (congr (congr (congrArg Cert.Attn.scoreMul (funext fun e => ?_))
    (funext fun j => funext fun e => ?_)) (funext fun j => ?_))) (funext fun j => ?_)
  · exact Cert.Lib.Reshape.four_three_apply _ _ ⟨b.val * 16 + h.val, hgl⟩ r e b h r e rfl
  · exact Cert.Lib.Reshape.four_three_apply _ _ ⟨b.val * 16 + h.val, hgl⟩ j e b h j e rfl
  · rw [extui_apply, Cert.Lib.Reshape.four_three_apply _ _ ⟨b.val * 16 + h.val, hgl⟩ r j b h r j rfl]
    exact Cert.Attn.ne_zero_of_widened _
  · exact Cert.Lib.Reshape.four_three_apply _ _ ⟨b.val * 16 + h.val, hgl⟩ j q b h j q rfl

/-! ## The run, read -/

/-- The frame run re-posted: the result buffer at the region's output re-read at rank four, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6)
          = shapeCast S2x16x2048x64 (regionOut (V m c main_v0) (V m c main_v1) (V m c main_v2) (V m c main_v4))
              Facts₀.shapeCasts_S32x2048x64_S2x16x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Host

end
-- ==== Proof.RefValue.lean ====
/-
  The reference's result, read at one entry.

  At batch `b`, head `h`, query row `r`, value column `c` the reference's result is masked softmax attention of that
  query row in the normalise-each spelling: the scores are the inner products of the query row with the head's key
  rows divided by `8`, set to the fill where the mask bit is set; the row's largest score is folded from `-∞` (and
  then compared with `-∞` once more, which changes nothing); each weight is divided by the sum of the row's weights,
  and the entry is the sum of those quotients times value column `c`.
-/
import proofs.«156598_j87368224735273_2_alg».proof.Proof.Gen.ReferenceIdeal.Read
import proofs.«156598_j87368224735273_2_alg».proof.Proof.LibAttnRow

noncomputable section

open scoped BigOperators

namespace Cert.ReferenceIdeal.RefValue

open Cert.ReferenceIdeal Cert.ReferenceIdeal.Read Cert.ReferenceIdeal.Facts₀
open Idealize.ShloMosaic Idealize.ShloMosaic.ValueIdx

variable [Facts]

variable (x0 x1 x2 : (⟨S2x16x2048x64, .f32⟩ : BufTy).Contents (Elt Ideal)) (x3 : (⟨S2x16x2048x2048, .i1⟩ : BufTy).Contents (Elt Ideal))

/-! ## The stages' index maps on coordinates -/

theorem lidx0 (b : Fin 2) (h : Fin 16) (r k : Fin 2048) (e : Fin 64) : lidx_main_v0 (ix4 b h r k) e = ix4 b h r e :=
  funext fun a => Fin.ext (by match a with | ⟨0, _⟩ => rfl | ⟨1, _⟩ => rfl | ⟨2, _⟩ => rfl | ⟨3, _⟩ => rfl)
theorem ridx0 (b : Fin 2) (h : Fin 16) (r k : Fin 2048) (e : Fin 64) : ridx_main_v0 (ix4 b h r k) e = ix4 b h k e :=
  funext fun a => Fin.ext (by match a with | ⟨0, _⟩ => rfl | ⟨1, _⟩ => rfl | ⟨2, _⟩ => rfl | ⟨3, _⟩ => rfl)
theorem idx78 (b : Fin 2) (h : Fin 16) (r k : Fin 2048) : idx_main_v7 (idx_main_v8 (ix4 b h r k)) = ix3 b h r :=
  funext fun a => Fin.ext (by match a with | ⟨0, _⟩ => rfl | ⟨1, _⟩ => rfl | ⟨2, _⟩ => rfl)
theorem idx1213 (b : Fin 2) (h : Fin 16) (r k : Fin 2048) : idx_main_v12 (idx_main_v13 (ix4 b h r k)) = ix3 b h r :=
  funext fun a => Fin.ext (by match a with | ⟨0, _⟩ => rfl | ⟨1, _⟩ => rfl | ⟨2, _⟩ => rfl)
theorem idx11 (b : Fin 2) (h : Fin 16) (r k : Fin 2048) : idx_main_v11 (ix3 b h r) k = ix4 b h r k :=
  funext fun a => Fin.ext (by match a with | ⟨0, _⟩ => rfl | ⟨1, _⟩ => rfl | ⟨2, _⟩ => rfl | ⟨3, _⟩ => rfl)
theorem lidx15 (b : Fin 2) (h : Fin 16) (r : Fin 2048) (c : Fin 64) (k : Fin 2048) : lidx_main_v15 (ix4 b h r c) k = ix4 b h r k :=
  funext fun a => Fin.ext (by match a with | ⟨0, _⟩ => rfl | ⟨1, _⟩ => rfl | ⟨2, _⟩ => rfl | ⟨3, _⟩ => rfl)
theorem ridx15 (b : Fin 2) (h : Fin 16) (r : Fin 2048) (c : Fin 64) (k : Fin 2048) : ridx_main_v15 (ix4 b h r c) k = ix4 b h k c :=
  funext fun a => Fin.ext (by match a with | ⟨0, _⟩ => rfl | ⟨1, _⟩ => rfl | ⟨2, _⟩ => rfl | ⟨3, _⟩ => rfl)
/-- Over `(b, h, r)`, the index with `k` put on the key axis. -/
theorem lift3 (hR : S2x16x2048x2048.Reduces [3] S2x16x2048) (b : Fin 2) (h : Fin 16) (r : Fin 2048) (k : Fin 2048) :
    hR.lift (ix3 b h r) k = ix4 b h r k :=
  funext fun a => Fin.ext (by match a with | ⟨0, _⟩ => rfl | ⟨1, _⟩ => rfl | ⟨2, _⟩ => rfl | ⟨3, _⟩ => rfl)

/-! ## The stages at an entry -/

/-- The masked score of query row `r` with key `k`. -/
theorem score_apply (b : Fin 2) (h : Fin 16) (r k : Fin 2048) :
    val_main_v3 (F := Ideal) x0 x1 x3 (ix4 b h r k)
      = Cert.Attn.scoreDiv (fun e : Fin 64 => x0 (ix4 b h r e)) (fun (j : Fin 2048) (e : Fin 64) => x1 (ix4 b h j e))
          (fun j : Fin 2048 => x3 (ix4 b h r j)) k := by
  rw [val_main_v3_apply, val_main_call0_v0_apply, val_main_cst_0_apply, val_main_v2_apply, val_main_v1_apply,
    val_main_cst_apply, val_main_v0_apply]
  unfold Cert.Attn.scoreDiv
  simp only [lidx0, ridx0]
  rfl

/-- The row's largest score: the fold from `-∞`; comparing it with `-∞` again changes nothing. -/
theorem max_apply (b : Fin 2) (h : Fin 16) (r : Fin 2048) :
    val_main_v6 (F := Ideal) x0 x1 x3 (ix3 b h r)
      = Cert.Attn.rowMax (fun k : Fin 2048 => val_main_v3 (F := Ideal) x0 x1 x3 (ix4 b h r k)) := by
  have hR : S2x16x2048x2048.Reduces [3] S2x16x2048 := by decide
  have e4 : val_main_v4 (F := Ideal) x0 x1 x3 (ix3 b h r)
      = (Finset.univ : Finset (Fin 2048)).fold max (Ideal.ofBits .f32 0xFF800000#32)
          (fun k => val_main_v3 (F := Ideal) x0 x1 x3 (ix4 b h r k)) := by
    unfold val_main_v4
    rw [Host.reduce_eq_fold_single FloatOps.maximumf _ _ reducesTo_S2x16x2048x2048_S2x16x2048_d3 hR h_S_]
    exact congrArg (fun f => (Finset.univ : Finset (Fin 2048)).fold max (Ideal.ofBits .f32 0xFF800000#32) f)
      (funext fun k => congrArg _ (lift3 hR b h r k))
  rw [val_main_v6_apply, val_main_v5_apply, val_main_cst_2_apply, e4]
  unfold Cert.Attn.rowMax
  refine max_eq_right ?_
  rw [Finset.le_fold_max]
  exact Or.inl le_rfl

/-- The weight of key `k` in query row `r`. -/
theorem weight_apply (b : Fin 2) (h : Fin 16) (r k : Fin 2048) :
    val_main_v10 (F := Ideal) x0 x1 x3 (ix4 b h r k)
      = Cert.Attn.weight (fun k : Fin 2048 => val_main_v3 (F := Ideal) x0 x1 x3 (ix4 b h r k)) k := by
  rw [val_main_v10_apply, val_main_v9_apply, val_main_v8_apply, val_main_v7_apply, idx78, max_apply]
  rfl

/-- The sum of the row's weights, from the zero word. -/
theorem denom_apply (b : Fin 2) (h : Fin 16) (r : Fin 2048) :
    val_main_v11 (F := Ideal) x0 x1 x3 (ix3 b h r)
      = Ideal.ofBits .f32 0x00000000#32 + Cert.Attn.denom (fun k : Fin 2048 => val_main_v3 (F := Ideal) x0 x1 x3 (ix4 b h r k)) := by
  rw [val_main_v11_apply, val_main_cst_3_apply]
  unfold Cert.Attn.denom
  refine congrArg (Ideal.ofBits .f32 0x00000000#32 + ·) (Finset.sum_congr rfl fun k _ => ?_)
  rw [idx11, weight_apply]

/-- The result at `(b, h, r, c)`. -/
theorem result_apply (b : Fin 2) (h : Fin 16) (r : Fin 2048) (c : Fin 64) :
    val_main_v15 (F := Ideal) x0 x1 x2 x3 (ix4 b h r c)
      = Cert.Attn.attnEach
          (Cert.Attn.scoreDiv (fun e : Fin 64 => x0 (ix4 b h r e)) (fun (j : Fin 2048) (e : Fin 64) => x1 (ix4 b h j e))
            (fun j : Fin 2048 => x3 (ix4 b h r j)))
          (fun j : Fin 2048 => x2 (ix4 b h j c)) := by
  have hs : (fun k : Fin 2048 => val_main_v3 (F := Ideal) x0 x1 x3 (ix4 b h r k))
      = Cert.Attn.scoreDiv (fun e : Fin 64 => x0 (ix4 b h r e)) (fun (j : Fin 2048) (e : Fin 64) => x1 (ix4 b h j e))
          (fun j : Fin 2048 => x3 (ix4 b h r j)) := funext fun k => score_apply x0 x1 x3 b h r k
  rw [val_main_v15_apply]
  unfold Cert.Attn.attnEach
  rw [← hs]
  refine Finset.sum_congr rfl fun k _ => ?_
  rw [lidx15, ridx15, val_main_v14_apply, val_main_v13_apply, val_main_v12_apply, idx1213, denom_apply, weight_apply]
  rfl

end Cert.ReferenceIdeal.RefValue

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.PreEntries.lean ====
/-
  The precondition read back: every entry of the three float arguments is a real.

  The precondition is the conjunction of three tests, one per float argument, each saying that every entry's absolute
  value is below `+∞`. Where it evaluates to the flag 1 each conjunct is 1, and a conjunct that is 1 says that every
  entry of its argument is a real (neither infinity).
-/
import proofs.«156598_j87368224735273_2_alg».proof.Pre_finite_inputs
import proofs.«156598_j87368224735273_2_alg».proof.Proof.LibFiniteEntry
import Idealize.ShloMosaic.Lib.ValueIdx

noncomputable section

namespace Cert.Pre_finite_inputs.Entries

open Cert.Pre_finite_inputs Cert.Pre_finite_inputs.Facts Idealize.ShloMosaic

variable [Facts]

/-- The scalar shape has one index. -/
instance : Subsingleton S_.Idx := ⟨fun _ _ => funext fun d => d.elim0⟩

/-- Where the precondition holds, the query, key and value arrays hold reals only. -/
theorem real_of_pre (a0 a1 a2 : FVec Ideal S2x16x2048x64 .f32) (a3 : IVec S2x16x2048x2048 1)
    (h : fn (F := Ideal) a0 a1 a2 a3 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) := by
  have h0 := congrFun h ValueIdx.ix0
  dsimp only [fn] at h0
  obtain ⟨h01, h2⟩ := (ProofLib.Finite.andi_eq_one _ _).mp h0
  obtain ⟨hq, hk⟩ := (ProofLib.Finite.andi_eq_one _ _).mp h01
  exact ⟨fun i => ProofLib.Finite.all_real_of_all_abs_lt_inf a0 _ (fun _ => rfl) _ reducesTo_S2x16x2048x64_S_d0_1_2_3 h_S_ ValueIdx.ix0 hq i,
    fun i => ProofLib.Finite.all_real_of_all_abs_lt_inf a1 _ (fun _ => rfl) _ reducesTo_S2x16x2048x64_S_d0_1_2_3 h_S_ ValueIdx.ix0 hk i,
    fun i => ProofLib.Finite.all_real_of_all_abs_lt_inf a2 _ (fun _ => rfl) _ reducesTo_S2x16x2048x64_S_d0_1_2_3 h_S_ ValueIdx.ix0 h2 i⟩

end Cert.Pre_finite_inputs.Entries

end
-- ==== Proof.lean ====
/-
  Scaled dot-product attention with a boolean mask: a tiled kernel against its plain reference, over the extended
  reals.

  Both programs compute, for every batch `b`, head `h`, query row `r` and value column `c`, the masked softmax
  attention of that query row against the head's keys and values. They spell it differently. The kernel scales the
  query by `0.125` before the inner products, works head-major on blocks of 1024 query rows, and normalises the
  finished weighted sum by the reciprocal of the weights' sum; the reference divides the inner products by `8` and
  normalises each weight. Both fill masked scores with the same word `-1e9` and take the row's largest score from
  `-∞`. At the ideal values a change of float format is the identity and each matrix product is its exact sum, so what
  remains is algebra on one row: moving the factor `1/8` out of a finite sum, and moving `1/L` across one. Both steps
  hold where the entries are reals, which the precondition gives (every float input finite); the sum `L` of the
  weights is then a positive real.

  The frames are the generated ones (the reference's is its generated run with the result dropped); no rewrite was
  applied when the kernel was idealized, so nothing is owed for it.
-/
import proofs.«156598_j87368224735273_2_alg».proof.Defs
import proofs.«156598_j87368224735273_2_alg».proof.Proof.Gen.Kernel
import proofs.«156598_j87368224735273_2_alg».proof.Proof.Gen.Kernel.Frame
import proofs.«156598_j87368224735273_2_alg».proof.Proof.Gen.KernelIdeal
import proofs.«156598_j87368224735273_2_alg».proof.Proof.Gen.KernelIdeal.Frame
import proofs.«156598_j87368224735273_2_alg».proof.Proof.Gen.ReferenceIdeal
import proofs.«156598_j87368224735273_2_alg».proof.Proof.Gen.Pre_finite_inputs
import proofs.«156598_j87368224735273_2_alg».proof.Proof.Gen.ReferenceIdeal.Run
import proofs.«156598_j87368224735273_2_alg».proof.Proof.Gen.ReferenceIdeal.Read
import proofs.«156598_j87368224735273_2_alg».proof.Proof.LibAttnRow
import proofs.«156598_j87368224735273_2_alg».proof.Proof.KerHost
import proofs.«156598_j87368224735273_2_alg».proof.Proof.RefValue
import proofs.«156598_j87368224735273_2_alg».proof.Proof.PreEntries

noncomputable section

namespace Cert.Proof

open Idealize.ShloMosaic Idealize.ShloMosaic.TcCoe Idealize.SL.Sem Idealize.ShloMosaic.ValueIdx

/-! ## The two spellings are one function of real arguments -/

/-- On real queries, keys and values the normalise-once spelling over the scaled query is, entry by entry, the
    reference's result. -/
theorem spellings_agree (a0 a1 a2 : Cert.ReferenceIdeal.S2x16x2048x64.Idx → EReal)
    (a3 : Cert.ReferenceIdeal.S2x16x2048x2048.Idx → BitVec 1)
    (h0 : ∀ i, ∃ r : ℝ, a0 i = (r : EReal)) (h1 : ∀ i, ∃ r : ℝ, a1 i = (r : EReal)) (h2 : ∀ i, ∃ r : ℝ, a2 i = (r : EReal))
    (b : Fin 2) (h : Fin 16) (r : Fin 2048) (q : Fin 64) :
    Cert.Attn.attnOnce
        (Cert.Attn.scoreMul (fun e : Fin 64 => a0 (ix4 b h r e)) (fun (j : Fin 2048) (e : Fin 64) => a1 (ix4 b h j e))
          (fun j : Fin 2048 => a3 (ix4 b h r j)))
        (fun j : Fin 2048 => a2 (ix4 b h j q))
      = Cert.ReferenceIdeal.Read.val_main_v15 (F := Ideal) a0 a1 a2 a3 (ix4 b h r q) := by
  rw [Cert.ReferenceIdeal.RefValue.result_apply, Cert.Attn.scoreMul_eq_scoreDiv _ _ _ (fun e => h0 _) (fun j e => h1 _)]
  exact Cert.Attn.attnOnce_eq_attnEach (by norm_num) _ _
    (fun j => Cert.Attn.scoreDiv_real _ _ _ (fun e => h0 _) (fun j e => h1 _) j) (fun j => h2 _)

/-- Under the precondition the kernel program's result buffer holds the reference's function of the arguments. -/
theorem kernel_is_reference (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = fun _ => 1#1) :
    shapeCast Cert.KernelIdeal.S2x16x2048x64
        (Cert.KernelIdeal.Blocks.regionOut (Cert.KernelIdeal.Gen.V m c Cert.KernelIdeal.main_v0)
          (Cert.KernelIdeal.Gen.V m c Cert.KernelIdeal.main_v1) (Cert.KernelIdeal.Gen.V m c Cert.KernelIdeal.main_v2)
          (Cert.KernelIdeal.Gen.V m c Cert.KernelIdeal.main_v4))
        Cert.KernelIdeal.Facts₀.shapeCasts_S32x2048x64_S2x16x2048x64
      = Cert.ReferenceIdeal.Read.val_main_v15 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨h0, h1, h2⟩ := Cert.Pre_finite_inputs.Entries.real_of_pre _ _ _ _ hpre
  funext i
  obtain ⟨b, h, r, q, rfl⟩ : ∃ (b : Fin 2) (h : Fin 16) (r : Fin 2048) (q : Fin 64), i = ix4 b h r q :=
    ⟨i 0, i 1, i 2, i 3, eq_ix4 i⟩
  exact (Cert.KernelIdeal.Host.result_apply m c b h r q).trans (spellings_agree _ _ _ _ h0 h1 h2 b h r q)

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no rewrite was applied. -/
theorem preserves : Cert.preserves_Kernel_KernelIdeal := trivial

/-- Both idealized programs end with the reference's function of the (agreeing) arguments in their result buffers. -/
theorem algebraic : Cert.algebraic_KernelIdeal_ReferenceIdeal := by
  intro m ρ m' ρ' hpre hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨(h c).1.trans (kernel_is_reference m c (hpre c)), (h c).2⟩) (Cert.KernelIdeal.Host.run m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v15_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
